-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S2048x4096, .bf16⟩
  | .hbm, ⟨5, _⟩ => ⟨S2048x4096, .f32⟩
  | .hbm, ⟨6, _⟩ => ⟨S2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096_S1x4096 : S4096.ShapeCasts S1x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x4096.size a
  hwx0_0 : ∀ i : grid0.Coords, EltTy.bits .bf16 = 32 ∨ (Rect.block (s := S2048x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x4096.size a
  hwx0_3 : ∀ i : grid0.Coords, EltTy.bits .f32 = 32 ∨ (Rect.block (s := S2048x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S2048x4096.size a
  hwx0_4 : ∀ i : grid0.Coords, EltTy.bits .f32 = 32 ∨ (Rect.block (s := S2048x4096) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S256x512 : Shape := ⟨2, ![256, 512]⟩
abbrev S512x512 : Shape := ⟨2, ![512, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  bcast_S_S2048x4096 : S_.BroadcastsInDim S2048x4096 (![] : Fin 0 → Fin S2048x4096.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x4096.size a
  hwx0_0 : ∀ i : grid0.Coords, EltTy.bits .f32 = 32 ∨ (Rect.block (s := S2048x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x4096.size a
  hwx0_1 : ∀ i : grid0.Coords, EltTy.bits .f32 = 32 ∨ (Rect.block (s := S2048x4096) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S2048x4096.size a
  hwx0_4 : ∀ i : grid0.Coords, EltTy.bits .f32 = 32 ∨ (Rect.block (s := S2048x4096) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x4096.size a
  hwx0_5 : ∀ i : grid0.Coords, EltTy.bits .f32 = 32 ∨ (Rect.block (s := S2048x4096) S256x512.size (cc0_transform_5 i) (hinb0_5 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.LibBlockSum.lean ====
/-
  Dot products of matrix rows, cut into consecutive stretches of columns.

  For matrices X (A × K) and W (B × K) of extended reals the product X · Wᵀ has, at (a, b), the dot product of
  row a of X with row b of W. Summing the first n columns only gives a partial dot product; adding the next T
  columns to it gives the partial dot product over n + T columns. That is all a blocked matrix product does
  along its contraction axis, and it needs nothing but the associativity and commutativity of addition, which
  hold on the extended reals with the infinities included: no entry has to be finite.

  To speak of "row r, column k" for arbitrary naturals, a matrix is continued by zero outside its extents.
-/
import Idealize.ShloMosaic.Lib.ValueIdx
import Idealize.ShloMosaic.PureOps.Ideal

noncomputable section

open scoped BigOperators

namespace Cert.BlockSum

open Idealize.ShloMosaic Idealize.ShloMosaic.ValueIdx

/-- A matrix continued by zero outside its extents: it can be read at any pair of naturals. -/
def ext2 {A B : Nat} (X : (⟨2, ![A, B]⟩ : Shape).Idx → EReal) (r k : ℕ) : EReal :=
  if h : r < A ∧ k < B then X (ix2 ⟨r, h.1⟩ ⟨k, h.2⟩) else 0

/-- Inside the extents the continuation is the matrix. -/
theorem ext2_val {A B : Nat} (X : (⟨2, ![A, B]⟩ : Shape).Idx → EReal) (a : Fin A) (b : Fin B) :
    ext2 X a.val b.val = X (ix2 a b) := by
  unfold ext2
  rw [dif_pos ⟨a.isLt, b.isLt⟩]

/-- An entry, read by the values of its index's two coordinates. -/
theorem apply_eq_ext2 {A B : Nat} (X : (⟨2, ![A, B]⟩ : Shape).Idx → EReal) (i : (⟨2, ![A, B]⟩ : Shape).Idx)
    (r k : ℕ) (hr : (i 0).val = r) (hk : (i 1).val = k) : X i = ext2 X r k := by
  subst hr hk
  unfold ext2
  rw [dif_pos (⟨(i 0).isLt, (i 1).isLt⟩ : (i 0).val < A ∧ (i 1).val < B)]
  refine congrArg X (funext fun d => ?_)
  match d with
  | ⟨0, _⟩ => rfl
  | ⟨1, _⟩ => rfl

/-- An entry at an index known by its two coordinates. -/
theorem apply_of_eq_ix2 {A B : Nat} (X : (⟨2, ![A, B]⟩ : Shape).Idx → EReal) (i : (⟨2, ![A, B]⟩ : Shape).Idx)
    (r k : ℕ) (hr : r < A) (hk : k < B) (hi : i = ix2 ⟨r, hr⟩ ⟨k, hk⟩) : X i = ext2 X r k := by
  subst hi
  exact (ext2_val X ⟨r, hr⟩ ⟨k, hk⟩).symm

/-- Row r of X against row o of W over the first n columns. -/
def rowDot {A B K : Nat} (X : (⟨2, ![A, K]⟩ : Shape).Idx → EReal) (W : (⟨2, ![B, K]⟩ : Shape).Idx → EReal)
    (r o n : ℕ) : EReal :=
  ∑ k ∈ Finset.range n, ext2 X r k * ext2 W o k

/-- Over no column the partial dot product is zero. -/
theorem rowDot_zero {A B K : Nat} (X : (⟨2, ![A, K]⟩ : Shape).Idx → EReal) (W : (⟨2, ![B, K]⟩ : Shape).Idx → EReal)
    (r o : ℕ) : rowDot X W r o 0 = 0 := by
  unfold rowDot
  rw [Finset.range_zero, Finset.sum_empty]

/-- The next T columns added to the partial dot product over n columns give the one over n + T columns. -/
theorem rowDot_add {A B K : Nat} (X : (⟨2, ![A, K]⟩ : Shape).Idx → EReal) (W : (⟨2, ![B, K]⟩ : Shape).Idx → EReal)
    (r o n T : ℕ) :
    rowDot X W r o n + ∑ k : Fin T, ext2 X r (n + k.val) * ext2 W o (n + k.val) = rowDot X W r o (n + T) := by
  unfold rowDot
  rw [Finset.sum_range_add, Finset.sum_range (fun x => ext2 X r (n + x) * ext2 W o (n + x))]

/-- The product X · Wᵀ: at (a, b) the dot product of row a of X with row b of W. -/
def mulT {A B K : Nat} (X : (⟨2, ![A, K]⟩ : Shape).Idx → EReal) (W : (⟨2, ![B, K]⟩ : Shape).Idx → EReal) :
    (⟨2, ![A, B]⟩ : Shape).Idx → EReal :=
  fun j => ∑ k : Fin K, X (ix2 (j 0) k) * W (ix2 (j 1) k)

/-- Its entry is the partial dot product over all K columns. -/
theorem mulT_eq_rowDot {A B K : Nat} (X : (⟨2, ![A, K]⟩ : Shape).Idx → EReal) (W : (⟨2, ![B, K]⟩ : Shape).Idx → EReal)
    (j : (⟨2, ![A, B]⟩ : Shape).Idx) (r o : ℕ) (hr : (j 0).val = r) (ho : (j 1).val = o) :
    mulT X W j = rowDot X W r o K := by
  subst hr ho
  unfold mulT rowDot
  rw [Finset.sum_range (fun k => ext2 X (j 0).val k * ext2 W (j 1).val k)]
  exact Finset.sum_congr rfl fun k _ =>
    congrArg₂ (· * ·) (ext2_val X (j 0) k).symm (ext2_val W (j 1) k).symm

end Cert.BlockSum

end
-- ==== Proof.LibRangeSum.lean ====
import Idealize.ShloMosaic.Lib.ValueIdx

/-!
# Sums over positions, split by coordinates

In a commutative monoid (the extended reals under addition are one, infinities included) a sum over the positions
below A * B is the double sum over a quotient below A and a remainder below B; nested sums over independent ranges
may be exchanged; and a sum over the index set of a rank-3 array, or of a one-column matrix, is a nested sum over
ranges of its coordinates. None of the statements evaluates an index set, so they apply at any extent.
-/

open scoped BigOperators

namespace Cert.Lib.RangeSum

open Idealize.ShloMosaic Idealize.ShloMosaic.ValueIdx

/-- Positions below A * B, split as a * B + b. -/
theorem sum_range_mul {M : Type*} [AddCommMonoid M] (f : ℕ → M) (A B : ℕ) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- Two outer sums exchanged with two inner ones. -/
theorem sum_comm22 {M : Type*} [AddCommMonoid M] {α β γ δ : Type*} (S : Finset α) (L : Finset β) (K : Finset γ)
    (G : Finset δ) (F : α → β → γ → δ → M) :
    ∑ s ∈ S, ∑ l ∈ L, ∑ k ∈ K, ∑ g ∈ G, F s l k g = ∑ k ∈ K, ∑ g ∈ G, ∑ s ∈ S, ∑ l ∈ L, F s l k g := by
  calc ∑ s ∈ S, ∑ l ∈ L, ∑ k ∈ K, ∑ g ∈ G, F s l k g
      = ∑ s ∈ S, ∑ k ∈ K, ∑ l ∈ L, ∑ g ∈ G, F s l k g := Finset.sum_congr rfl fun s _ => Finset.sum_comm
    _ = ∑ k ∈ K, ∑ s ∈ S, ∑ l ∈ L, ∑ g ∈ G, F s l k g := Finset.sum_comm
    _ = ∑ k ∈ K, ∑ s ∈ S, ∑ g ∈ G, ∑ l ∈ L, F s l k g :=
        Finset.sum_congr rfl fun k _ => Finset.sum_congr rfl fun s _ => Finset.sum_comm
    _ = ∑ k ∈ K, ∑ g ∈ G, ∑ s ∈ S, ∑ l ∈ L, F s l k g := Finset.sum_congr rfl fun k _ => Finset.sum_comm

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set of a function of the coordinates' values, as nested sums over ranges. -/
theorem sum_idx3_range {M : Type*} [AddCommMonoid M] {n0 n1 n2 : Nat} (F : ℕ → ℕ → ℕ → M) :
    ∑ i : (⟨3, ![n0, n1, n2]⟩ : Shape).Idx, F (i 0).val (i 1).val (i 2).val
      = ∑ a ∈ Finset.range n0, ∑ b ∈ Finset.range n1, ∑ c ∈ Finset.range n2, F a b c := by
  rw [sum_idx3, Finset.sum_range]
  refine Finset.sum_congr rfl fun a _ => ?_
  rw [Finset.sum_range]
  refine Finset.sum_congr rfl fun b _ => ?_
  rw [Finset.sum_range]
  rfl

/-- A sum over the index set of an n-by-1 matrix of a function of the row's value, as a sum over a range. -/
theorem sum_idx_col_range {M : Type*} [AddCommMonoid M] {n : Nat} (F : ℕ → M) :
    ∑ i : (⟨2, ![n, 1]⟩ : Shape).Idx, F (i 0).val = ∑ a ∈ Finset.range n, F a := by
  rw [sum_idx2, Finset.sum_range]
  refine Finset.sum_congr rfl fun a _ => ?_
  rw [Fintype.sum_eq_single (0 : Fin 1) (fun b hb => absurd (Subsingleton.elim b 0) hb)]
  rfl

end Cert.Lib.RangeSum
-- ==== Proof.LibScaleSum.lean ====
/-
  Scaling a finite sum of extended reals by a factor that is nonnegative and not +∞.

  On the extended reals multiplication does not distribute over addition in general (⊤ + ⊥ is ⊥, so a negative
  factor breaks it), but for a factor c with 0 ≤ c < ⊤ it does, infinite summands included. By induction over the
  index set the same holds of any finite sum: c · Σ f = Σ c · f. No summand has to be finite.

  The float word 0x3F000000 denotes exactly 1/2, which is such a factor.
-/
import Idealize.ShloMosaic.PureOps.Ideal

noncomputable section

open scoped BigOperators

namespace Cert.Lib.ScaleSum

open Idealize.ShloMosaic

/-- A factor that is nonnegative and not +∞ goes through a finite sum of extended reals. -/
theorem mul_sum {ι : Type*} (c : EReal) (h0 : 0 ≤ c) (ht : c ≠ ⊤) (s : Finset ι) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- The same with the factor inside a product of two entries: Σ (c · x) · w = c · Σ x · w. -/
theorem sum_mul_mul {ι : Type*} (c : EReal) (h0 : 0 ≤ c) (ht : c ≠ ⊤) (s : Finset ι) (x w : ι → EReal) :
    ∑ k ∈ s, (c * x k) * w k = c * ∑ k ∈ s, x k * w k := by
  rw [mul_sum c h0 ht]
  exact Finset.sum_congr rfl fun k _ => mul_assoc _ _ _

/-- The float 0.5 is the real number 1/2. -/
theorem half_eq : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [half_eq]; exact EReal.coe_nonneg.mpr (by norm_num)

theorem half_ne_top : Ideal.ofBits .f32 0x3F000000#32 ≠ (⊤ : EReal) := by
  rw [half_eq]; exact EReal.coe_ne_top _

end Cert.Lib.ScaleSum

end
-- ==== Proof.DualLinearSpec.lean ====
/-
  Two linear layers from one product: what both programs compute, as functions of the argument arrays.

  For x (A × K), w (B × K) and a bias b (B), the first result is y = x · wᵀ + b and the second is the layer applied to
  the half-scaled input, y½ = (½ x) · wᵀ + b. Entry (r, o) of x · wᵀ is the dot product of row r of x with row o of w
  over all K columns.

  Two facts join the programs. Halving commutes with the dot product: Σ (½ x) · w = ½ · Σ x · w, because ½ is a
  nonnegative real factor, which goes through a finite sum of extended reals whatever the summands are. And a dot
  product over S · T columns is the sum, over S consecutive stretches of T columns, of the stretches' dot products,
  which needs only that addition is associative and commutative. Neither asks any entry to be finite.
-/
import proofs.«168209_g2000306163821141_pallasbulk_1277_4_alg».proof.Proof.LibBlockSum
import proofs.«168209_g2000306163821141_pallasbulk_1277_4_alg».proof.Proof.LibRangeSum
import proofs.«168209_g2000306163821141_pallasbulk_1277_4_alg».proof.Proof.LibScaleSum

noncomputable section

open scoped BigOperators

namespace Cert.DualLinear

open Idealize.ShloMosaic Idealize.ShloMosaic.ValueIdx Cert.BlockSum

/-- A vector continued by zero past its extent: it can be read at any natural. -/
def ext1 {B : Nat} (b : (⟨1, ![B]⟩ : Shape).Idx → EReal) (q : ℕ) : EReal :=
  if h : q < B then b (ix1 ⟨q, h⟩) else 0

/-- An entry of the vector, read by the value of its index's coordinate. -/
theorem apply_eq_ext1 {B : Nat} (b : (⟨1, ![B]⟩ : Shape).Idx → EReal) (i : (⟨1, ![B]⟩ : Shape).Idx) (q : ℕ)
    (hq : (i 0).val = q) : b i = ext1 b q := by
  subst hq
  unfold ext1
  rw [dif_pos (show (i 0).val < B from (i 0).isLt)]
  exact congrArg b (eq_ix1 i)

/-- The factor ½, as the float both programs carry. -/
def half : EReal := Ideal.ofBits .f32 0x3F000000#32

/-- y = x · wᵀ + b. -/
def yOf {A B K : Nat} (X : (⟨2, ![A, K]⟩ : Shape).Idx → EReal) (W : (⟨2, ![B, K]⟩ : Shape).Idx → EReal)
    (b : (⟨1, ![B]⟩ : Shape).Idx → EReal) : (⟨2, ![A, B]⟩ : Shape).Idx → EReal :=
  fun j => rowDot X W (j 0).val (j 1).val K + ext1 b (j 1).val

/-- y½ = ½ · (x · wᵀ) + b. -/
def yHalfOf {A B K : Nat} (X : (⟨2, ![A, K]⟩ : Shape).Idx → EReal) (W : (⟨2, ![B, K]⟩ : Shape).Idx → EReal)
    (b : (⟨1, ![B]⟩ : Shape).Idx → EReal) : (⟨2, ![A, B]⟩ : Shape).Idx → EReal :=
  fun j => half * rowDot X W (j 0).val (j 1).val K + ext1 b (j 1).val

/-- Scaling every entry of a matrix scales its continuation by zero. -/
theorem ext2_scaled {A B : Nat} (c : EReal) (X : (⟨2, ![A, B]⟩ : Shape).Idx → EReal) (r k : ℕ) :
    ext2 (fun i => c * X i) r k = c * ext2 X r k := by
  unfold ext2
  by_cases h : r < A ∧ k < B
  · rw [dif_pos h, dif_pos h]
  · rw [dif_neg h, dif_neg h, mul_zero]

/-- Halving the left matrix halves every partial dot product. -/
theorem rowDot_half {A B K : Nat} (X : (⟨2, ![A, K]⟩ : Shape).Idx → EReal) (W : (⟨2, ![B, K]⟩ : Shape).Idx → EReal)
    (r o n : ℕ) : rowDot (fun i => half * X i) W r o n = half * rowDot X W r o n := by
  unfold rowDot
  simp only [ext2_scaled]
  exact Cert.Lib.ScaleSum.sum_mul_mul half Cert.Lib.ScaleSum.half_nonneg Cert.Lib.ScaleSum.half_ne_top _ _ _

/-- S consecutive stretches of T columns: their dot products add up to the dot product over S · T columns. -/
theorem rowDot_stretches {A B K : Nat} (X : (⟨2, ![A, K]⟩ : Shape).Idx → EReal) (W : (⟨2, ![B, K]⟩ : Shape).Idx → EReal)
    (r o S T : ℕ) :
    ∑ s ∈ Finset.range S, ∑ k : Fin T, ext2 X r (s * T + k.val) * ext2 W o (s * T + k.val) = rowDot X W r o (S * T) := by
  unfold rowDot
  rw [Cert.Lib.RangeSum.sum_range_mul]
  refine Finset.sum_congr rfl fun s _ => ?_
  rw [Finset.sum_range]

end Cert.DualLinear

end
-- ==== Proof.KernelBlock.lean ====
/-
  One block of the kernel's two results, entry by entry.

  At a grid point the body holds a block of 1024 rows of x (all 4096 columns), a block of 512 rows of w (all 4096
  columns) and 512 entries of the bias row. Its matrix unit contracts the column axis of both blocks into a zero
  accumulator, so entry (p, q) of the product is the dot product of row p of the x block with row q of the w block
  over all 4096 columns; a change of float format is the identity on extended reals. The first result's block adds
  the bias entry q; the second halves the product first and then adds the same bias entry.

  Stated for blocks that are known to be pieces of whole arrays X, W, b (row offsets R and C), the two entries are
  the whole-array results y and y½ at (R + p, C + q).
-/
import proofs.«168209_g2000306163821141_pallasbulk_1277_4_alg».proof.Proof.Gen.KernelIdeal.Value
import proofs.«168209_g2000306163821141_pallasbulk_1277_4_alg».proof.Proof.LibOneAxisDot
import proofs.«168209_g2000306163821141_pallasbulk_1277_4_alg».proof.Proof.LibDotFreeAxis
import proofs.«168209_g2000306163821141_pallasbulk_1277_4_alg».proof.Proof.DualLinearSpec
import Idealize.ShloMosaic.Lib.Pipeline.Value
import Idealize.ShloMosaic.Lib.ValueIdx

noncomputable section

open scoped BigOperators

namespace Cert.KernelIdeal.Block

open Cert.KernelIdeal Cert.KernelIdeal.Gen Idealize.ShloMosaic Idealize.ShloMosaic.ValueIdx Cert.BlockSum Cert.DualLinear

theorem zeros2 : (![0, 0] : Fin 2 → Nat) = fun _ => 0 := funext fun a => by fin_cases a <;> rfl

/-- The product of the x block with the transposed w block, at entry (p, q): the dot product of row p of the one
    with row q of the other over the 4096 columns. -/
theorem product_apply (P0 : Vec Ideal S1024x4096 .bf16) (P1 : Vec Ideal S512x4096 .f32) (p : Fin 1024) (q : Fin 512) :
    (k0_pay1 P0 P1 (ix2 p q) : EReal) = ∑ k : Fin 4096, (P0 (ix2 p k) : EReal) * (P1 (ix2 q k) : EReal) := by
  have hr : dot_S1024x4096_S512x4096_S1024x512_1_1_0_0_n_n.contr.rank = 1 := rfl
  have hs : dot_S1024x4096_S512x4096_S1024x512_1_1_0_0_n_n.contr.size ⟨0, by omega⟩ = 4096 := rfl
  show matmul dot_S1024x4096_S512x4096_S1024x512_1_1_0_0_n_n none
      (shapeCast S1024x4096 P0 shapeCasts_S1024x4096_S1024x4096) (truncf .bf16 P1 bitsLt_bf16_f32)
      (constant (F := Ideal) S1024x512 .f32 0x00000000#32) (ix2 p q) = _
  refine (Cert.Lib.OneAxisDot.matmul_zero_apply_at dot_S1024x4096_S512x4096_S1024x512_1_1_0_0_n_n 4096 hr hs none
    (shapeCast S1024x4096 P0 shapeCasts_S1024x4096_S1024x4096) (truncf .bf16 P1 bitsLt_bf16_f32) (ix2 p q)
    (fun k => ix2 p k) (fun k => ix2 q k) ?_ ?_).trans ?_
  · intro k
    funext a
    apply Fin.ext
    match a with
    | ⟨0, _⟩ =>
      exact Cert.Lib.DotFreeAxis.lhsIdx_val_of_free dot_S1024x4096_S512x4096_S1024x512_1_1_0_0_n_n rfl rfl (by decide)
        (ix2 p q) _
    | ⟨1, _⟩ =>
      exact (DotDims.lhsIdx_val_of_single dot_S1024x4096_S512x4096_S1024x512_1_1_0_0_n_n rfl (ix2 p q) _).trans
        (contrEquiv1_symm_val dot_S1024x4096_S512x4096_S1024x512_1_1_0_0_n_n 4096 hr hs k)
  · intro k
    funext a
    apply Fin.ext
    match a with
    | ⟨0, _⟩ =>
      exact Cert.Lib.DotFreeAxis.rhsIdx_val_of_free dot_S1024x4096_S512x4096_S1024x512_1_1_0_0_n_n rfl rfl rfl rfl
        (by decide) (ix2 p q) _
    | ⟨1, _⟩ =>
      exact (DotDims.rhsIdx_val_of_single dot_S1024x4096_S512x4096_S1024x512_1_1_0_0_n_n rfl (ix2 p q) _).trans
        (contrEquiv1_symm_val dot_S1024x4096_S512x4096_S1024x512_1_1_0_0_n_n 4096 hr hs k)
  · refine Finset.sum_congr rfl fun k _ => ?_
    rw [shapeCast_self]
    rfl

section Blocks

variable {A B : Nat} (X : (⟨2, ![A, 4096]⟩ : Shape).Idx → EReal) (W : (⟨2, ![B, 4096]⟩ : Shape).Idx → EReal)
  (b : (⟨1, ![B]⟩ : Shape).Idx → EReal) (R C : ℕ)
  (x0 : Vec Ideal S1024x4096 .bf16) (x1 : Vec Ideal S512x4096 .f32) (x2 : Vec Ideal S1x512 .f32)

/-- The product's entry when the blocks are rows R… of X and rows C… of W: the dot product of rows R + p and C + q. -/
theorem product_of_blocks
    (h0 : ∀ (p : Fin 1024) (k : Fin 4096), (x0 (ix2 p k) : EReal) = ext2 X (R + p.val) k.val)
    (h1 : ∀ (q : Fin 512) (k : Fin 4096), (x1 (ix2 q k) : EReal) = ext2 W (C + q.val) k.val)
    (p : Fin 1024) (q : Fin 512) :
    (k0_pay1 x0 x1 (ix2 p q) : EReal) = rowDot X W (R + p.val) (C + q.val) 4096 := by
  rw [product_apply]
  unfold rowDot
  rw [Finset.sum_range]
  exact Finset.sum_congr rfl fun k _ => by rw [h0, h1]

/-- The first result's block: the product plus the bias entry of the column. -/
theorem out3_of_blocks
    (h0 : ∀ (p : Fin 1024) (k : Fin 4096), (x0 (ix2 p k) : EReal) = ext2 X (R + p.val) k.val)
    (h1 : ∀ (q : Fin 512) (k : Fin 4096), (x1 (ix2 q k) : EReal) = ext2 W (C + q.val) k.val)
    (h2 : ∀ q : Fin 512, (x2 (ix2 (0 : Fin 1) q) : EReal) = ext1 b (C + q.val))
    (p : Fin 1024) (q : Fin 512) :
    (out0_3 x0 x1 x2 (ix2 p q) : EReal) = rowDot X W (R + p.val) (C + q.val) 4096 + ext1 b (C + q.val) := by
  unfold out0_3
  refine (Value.canon3_eq _ _ _ (ix2 p q)).trans ?_
  simp only [View.ld_unit_zero (S := S1024x4096) zeros2, View.ld_unit_zero (S := S512x4096) zeros2,
    View.ld_unit_zero (S := S1x512) zeros2]
  have e0 : Value.ix3_0 (ix2 p q : S1024x512.Idx) = (ix2 p q : S1024x512.Idx) := funext fun a => by
    match a with
    | ⟨0, _⟩ => rfl
    | ⟨1, _⟩ => rfl
  have e1 : Value.ix3_1 (ix2 p q : S1024x512.Idx) = (ix2 (0 : Fin 1) q : S1x512.Idx) := funext fun a => by
    match a with
    | ⟨0, _⟩ => rfl
    | ⟨1, _⟩ => rfl
  show (k0_pay1 x0 x1 (Value.ix3_0 (ix2 p q : S1024x512.Idx)) : EReal)
    + (x2 (Value.ix3_1 (ix2 p q : S1024x512.Idx)) : EReal) = _
  rw [e0, e1, product_of_blocks X W R C x0 x1 h0 h1, h2]

/-- The second result's block: half the product plus the same bias entry. -/
theorem out4_of_blocks
    (h0 : ∀ (p : Fin 1024) (k : Fin 4096), (x0 (ix2 p k) : EReal) = ext2 X (R + p.val) k.val)
    (h1 : ∀ (q : Fin 512) (k : Fin 4096), (x1 (ix2 q k) : EReal) = ext2 W (C + q.val) k.val)
    (h2 : ∀ q : Fin 512, (x2 (ix2 (0 : Fin 1) q) : EReal) = ext1 b (C + q.val))
    (p : Fin 1024) (q : Fin 512) :
    (out0_4 x0 x1 x2 (ix2 p q) : EReal)
      = half * rowDot X W (R + p.val) (C + q.val) 4096 + ext1 b (C + q.val) := by
  unfold out0_4
  refine (Value.canon4_eq _ _ _ (ix2 p q)).trans ?_
  simp only [View.ld_unit_zero (S := S1024x4096) zeros2, View.ld_unit_zero (S := S512x4096) zeros2,
    View.ld_unit_zero (S := S1x512) zeros2]
  have e0 : Value.ix4_0 (ix2 p q : S1024x512.Idx) = (ix2 p q : S1024x512.Idx) := funext fun a => by
    match a with
    | ⟨0, _⟩ => rfl
    | ⟨1, _⟩ => rfl
  have e1 : Value.ix4_1 (ix2 p q : S1024x512.Idx) = (ix2 (0 : Fin 1) q : S1x512.Idx) := funext fun a => by
    match a with
    | ⟨0, _⟩ => rfl
    | ⟨1, _⟩ => rfl
  show half * (k0_pay1 x0 x1 (Value.ix4_0 (ix2 p q : S1024x512.Idx)) : EReal)
    + (x2 (Value.ix4_1 (ix2 p q : S1024x512.Idx)) : EReal) = _
  rw [e0, e1, product_of_blocks X W R C x0 x1 h0 h1, h2]

end Blocks

end Cert.KernelIdeal.Block

end
-- ==== Proof.KernelArray.lean ====
/-
  The kernel's two result arrays after its run, as whole-array functions of the arguments.

  The grid has 2 × 8 points; point (i, j) reads rows 1024 i … of x (cast to bfloat16 by the host, which changes no
  extended real), rows 512 j … of w and entries 512 j … of the bias (reshaped by the host to one row), and writes
  the block at rows 1024 i …, columns 512 j … of each result. Every block written is the block of one whole-array
  function (y for the first result, y½ for the second), and the 16 blocks tile the 2048 × 4096 results: the row and
  column of an entry name the one point whose block holds it. So each result array ends as that function.
-/
import proofs.«168209_g2000306163821141_pallasbulk_1277_4_alg».proof.Proof.KernelBlock

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.BlockSum Cert.DualLinear
open Idealize.ShloMosaic.Pipeline (Dat)

variable (m : (ℓ : Loc nD τ sig) → Buf (Elt Ideal) ℓ) (ρ : Dev nD → PrngReg)

/-! ## The arrays the host wrote before the region -/

/-- The bfloat16 copy of x the region stages holds x's extended reals. -/
theorem V_xcopy (c : Dev nD) :
    (V m c main_v1 : S2048x4096.Idx → EReal) = (m ((c : Thread nD τ).loc main_arg0) : S2048x4096.Idx → EReal) := by
  dsimp only [V, hostOps0]; after_results; rfl

/-- The bias as one row of 4096 entries. -/
theorem V_biasrow (c : Dev nD) :
    (V m c main_v0 : S1x4096.Idx → EReal)
      = shapeCast S1x4096 (m ((c : Thread nD τ).loc main_arg2) : S4096.Idx → EReal) shapeCasts_S4096_S1x4096 := by
  dsimp only [V, hostOps0]; after_results; rfl

theorem xcopy_apply (c : Dev nD) (i : S2048x4096.Idx) (r k : ℕ) (hr : (i 0).val = r) (hk : (i 1).val = k) :
    (V m c main_v1 i : EReal) = ext2 (A := 2048) (B := 4096) (m ((c : Thread nD τ).loc main_arg0)) r k := by
  rw [V_xcopy]
  exact apply_eq_ext2 (A := 2048) (B := 4096) (m ((c : Thread nD τ).loc main_arg0)) i r k hr hk

theorem w_apply (c : Dev nD) (i : S4096x4096.Idx) (r k : ℕ) (hr : (i 0).val = r) (hk : (i 1).val = k) :
    (V m c main_arg1 i : EReal) = ext2 (A := 4096) (B := 4096) (m ((c : Thread nD τ).loc main_arg1)) r k := by
  rw [V_main_arg1]
  exact apply_eq_ext2 (A := 4096) (B := 4096) (m ((c : Thread nD τ).loc main_arg1)) i r k hr hk

theorem biasrow_apply (c : Dev nD) (i : S1x4096.Idx) (q : ℕ) (hq : (i 1).val = q) :
    (V m c main_v0 i : EReal) = ext1 (B := 4096) (m ((c : Thread nD τ).loc main_arg2)) q := by
  rw [V_biasrow]
  refine (shapeCast_addUnit_apply ![4096] _ _ i).trans ?_
  exact apply_eq_ext1 (B := 4096) (m ((c : Thread nD τ).loc main_arg2)) _ q hq

/-! ## The index maps over the grid -/

/-- Where each window's block sits at a point, relative to the first result's block (i, j): x at (i, 0), w at (j, 0),
    the bias row at (0, j), the second result at (i, j); and i < 2, j < 8. -/
theorem where_blocks : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_4.index t (0 : Fin 2) = win0_3.index t (0 : Fin 2) ∧ win0_4.index t (1 : Fin 2) = win0_3.index t (1 : Fin 2)
    ∧ win0_3.index t (0 : Fin 2) ≤ 1 ∧ win0_3.index t (1 : Fin 2) ≤ 7 :=
  (by decide +kernel : ∀ t : Fin grid0.N, _)

/-- Every block position (i, j) of the 2 × 8 tiling is some point's. -/
theorem every_block : ∀ (q0 : Fin 2) (q1 : Fin 8), ∃ t : Fin cfg0.N, win0_3.index t = ![q0.val, q1.val] :=
  (by decide +kernel : ∀ (q0 : Fin 2) (q1 : Fin 8), ∃ t : Fin grid0.N, win0_3.index t = ![q0.val, q1.val])

/-! ## What a point writes back -/

section Point

variable (c : Dev nD) (t : Fin cfg0.N)

theorem xblock_apply (p : Fin 1024) (k : Fin 4096) :
    (iblk m c 0 t (ix2 p k) : EReal)
      = ext2 (A := 2048) (B := 4096) (m ((c : Thread nD τ).loc main_arg0)) (win0_3.index t (0 : Fin 2) * 1024 + p.val) k.val := by
  obtain ⟨e0, e1, -⟩ := where_blocks t
  show (V m c main_v1 (((cfg0.win 0).blk t).view.emb (ix2 p k)) : EReal) = _
  refine xcopy_apply m c _ _ _ ?_ ?_
  · show win0_0.index t (0 : Fin 2) * 1024 + 1 * p.val = _
    omega
  · show win0_0.index t (1 : Fin 2) * 4096 + 1 * k.val = _
    omega

theorem wblock_apply (q : Fin 512) (k : Fin 4096) :
    (iblk m c 1 t (ix2 q k) : EReal)
      = ext2 (A := 4096) (B := 4096) (m ((c : Thread nD τ).loc main_arg1)) (win0_3.index t (1 : Fin 2) * 512 + q.val) k.val := by
  obtain ⟨-, -, e2, e3, -⟩ := where_blocks t
  show (V m c main_arg1 (((cfg0.win 1).blk t).view.emb (ix2 q k)) : EReal) = _
  refine w_apply m c _ _ _ ?_ ?_
  · show win0_1.index t (0 : Fin 2) * 512 + 1 * q.val = _
    omega
  · show win0_1.index t (1 : Fin 2) * 4096 + 1 * k.val = _
    omega

theorem biasblock_apply (q : Fin 512) :
    (iblk m c 2 t (ix2 (0 : Fin 1) q) : EReal)
      = ext1 (B := 4096) (m ((c : Thread nD τ).loc main_arg2)) (win0_3.index t (1 : Fin 2) * 512 + q.val) := by
  obtain ⟨-, -, -, -, e4, e5, -⟩ := where_blocks t
  show (V m c main_v0 (((cfg0.win 2).blk t).view.emb (ix2 (0 : Fin 1) q)) : EReal) = _
  refine biasrow_apply m c _ _ ?_
  show win0_2.index t (1 : Fin 2) * 512 + 1 * q.val = _
  omega

/-- What point t writes back to the first result is its block of y. -/
theorem flushed3_eq :
    (dats m 0 c).flushed 3 t = ((cfg0.win 3).blk t).view.read (Elt Ideal)
      (yOf (A := 2048) (B := 4096) (K := 4096) (m ((c : Thread nD τ).loc main_arg0)) (m ((c : Thread nD τ).loc main_arg1))
        (m ((c : Thread nD τ).loc main_arg2))) := by
  rw [Value.flushed3]
  funext y
  obtain ⟨p, q, rfl⟩ : ∃ (p : Fin 1024) (q : Fin 512), y = ix2 p q := ⟨y 0, y 1, eq_ix2 y⟩
  show (out0_3 (iblk m c 0 t) (iblk m c 1 t) (iblk m c 2 t) (ix2 p q) : EReal)
    = yOf (A := 2048) (B := 4096) (K := 4096) _ _ _ (((cfg0.win 3).blk t).view.emb (ix2 p q))
  refine (Block.out3_of_blocks (A := 2048) (B := 4096) (m ((c : Thread nD τ).loc main_arg0)) (m ((c : Thread nD τ).loc main_arg1))
    (m ((c : Thread nD τ).loc main_arg2)) (win0_3.index t (0 : Fin 2) * 1024) (win0_3.index t (1 : Fin 2) * 512)
    (iblk m c 0 t) (iblk m c 1 t) (iblk m c 2 t) (xblock_apply m c t) (wblock_apply m c t) (biasblock_apply m c t) p q).trans ?_
  have r0 : ((((cfg0.win 3).blk t).view.emb (ix2 p q)) 0).val = win0_3.index t (0 : Fin 2) * 1024 + p.val := by
    show win0_3.index t (0 : Fin 2) * 1024 + 1 * p.val = _
    omega
  have r1 : ((((cfg0.win 3).blk t).view.emb (ix2 p q)) 1).val = win0_3.index t (1 : Fin 2) * 512 + q.val := by
    show win0_3.index t (1 : Fin 2) * 512 + 1 * q.val = _
    omega
  unfold yOf
  rw [r0, r1]

/-- What point t writes back to the second result is its block of y½. -/
theorem flushed4_eq :
    (dats m 0 c).flushed 4 t = ((cfg0.win 4).blk t).view.read (Elt Ideal)
      (yHalfOf (A := 2048) (B := 4096) (K := 4096) (m ((c : Thread nD τ).loc main_arg0)) (m ((c : Thread nD τ).loc main_arg1))
        (m ((c : Thread nD τ).loc main_arg2))) := by
  obtain ⟨-, -, -, -, -, -, e6, e7, -⟩ := where_blocks t
  rw [Value.flushed4]
  funext y
  obtain ⟨p, q, rfl⟩ : ∃ (p : Fin 1024) (q : Fin 512), y = ix2 p q := ⟨y 0, y 1, eq_ix2 y⟩
  show (out0_4 (iblk m c 0 t) (iblk m c 1 t) (iblk m c 2 t) (ix2 p q) : EReal)
    = yHalfOf (A := 2048) (B := 4096) (K := 4096) _ _ _ (((cfg0.win 4).blk t).view.emb (ix2 p q))
  refine (Block.out4_of_blocks (A := 2048) (B := 4096) (m ((c : Thread nD τ).loc main_arg0)) (m ((c : Thread nD τ).loc main_arg1))
    (m ((c : Thread nD τ).loc main_arg2)) (win0_3.index t (0 : Fin 2) * 1024) (win0_3.index t (1 : Fin 2) * 512)
    (iblk m c 0 t) (iblk m c 1 t) (iblk m c 2 t) (xblock_apply m c t) (wblock_apply m c t) (biasblock_apply m c t) p q).trans ?_
  have r0 : ((((cfg0.win 4).blk t).view.emb (ix2 p q)) 0).val = win0_3.index t (0 : Fin 2) * 1024 + p.val := by
    show win0_4.index t (0 : Fin 2) * 1024 + 1 * p.val = _
    omega
  have r1 : ((((cfg0.win 4).blk t).view.emb (ix2 p q)) 1).val = win0_3.index t (1 : Fin 2) * 512 + q.val := by
    show win0_4.index t (1 : Fin 2) * 512 + 1 * q.val = _
    omega
  unfold yHalfOf
  rw [r0, r1]

end Point

/-! ## The blocks tile the results -/

/-- An entry is in point t's block of the first result iff its row and column are in the block's ranges. -/
theorem mem_blk3 (t : Fin cfg0.N) (i : S2048x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2_0).slice (win0_3.rect t)).set ↔ _
  rw [View.set_slice_whole, Rect.mem_set_unit]
  exact Iff.rfl

theorem mem_blk4 (t : Fin cfg0.N) (i : S2048x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v2_1).slice (win0_4.rect t)).set ↔ _
  rw [View.set_slice_whole, Rect.mem_set_unit]
  exact Iff.rfl

/-- Entry (r, o) is in the block of the point at block position (r / 1024, o / 512). -/
theorem covered3 (i : S2048x4096.Idx) :
    ∃ t : Fin cfg0.N, (cfg0.win 3).flush t = true ∧ i ∈ ((cfg0.win 3).blk t).view.set := by
  have hi0 : (i 0).val < 2048 := (i 0).isLt
  have hi1 : (i 1).val < 4096 := (i 1).isLt
  obtain ⟨t, ht⟩ := every_block ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

theorem covered4 (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  obtain ⟨t, ht⟩ := every_block ⟨(i 0).val / 1024, by omega⟩ ⟨(i 1).val / 512, by omega⟩
  obtain ⟨-, -, -, -, -, -, e6, e7, -⟩ := where_blocks t
  have q0 : win0_3.index t (0 : Fin 2) = (i 0).val / 1024 := congrFun ht 0
  have q1 : win0_3.index t (1 : Fin 2) = (i 1).val / 512 := congrFun ht 1
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-! ## The arrays after the run -/

theorem final3 (c : Dev nD) :
    (dats m 0 c).arrAt 3 cfg0.N = yOf (A := 2048) (B := 4096) (K := 4096) (m ((c : Thread nD τ).loc main_arg0))
      (m ((c : Thread nD τ).loc main_arg1)) (m ((c : Thread nD τ).loc main_arg2)) :=
  (dats m 0 c).arrAt_eq_of_cover 3 _ (fun t _ => flushed3_eq m c t) covered3

theorem final4 (c : Dev nD) :
    (dats m 0 c).arrAt 4 cfg0.N = yHalfOf (A := 2048) (B := 4096) (K := 4096) (m ((c : Thread nD τ).loc main_arg0))
      (m ((c : Thread nD τ).loc main_arg1)) (m ((c : Thread nD τ).loc main_arg2)) :=
  (dats m 0 c).arrAt_eq_of_cover 4 _ (fun t _ => flushed4_eq m c t) covered4

/-- Every weakly fair execution of the kernel's program ends with the first result at y, the second at y½, and the
    arguments as launched. -/
theorem run : θ_run defs (onTc (τ := τ) (main (F := Ideal))) ⟨m, fun _ => 0, ρ⟩ fun r => ∀ c : Dev nD,
      r.2.mem ((c : Thread nD τ).loc main_v2_0) = yOf (A := 2048) (B := 4096) (K := 4096)
        (m ((c : Thread nD τ).loc main_arg0)) (m ((c : Thread nD τ).loc main_arg1)) (m ((c : Thread nD τ).loc main_arg2))
      ∧ r.2.mem ((c : Thread nD τ).loc main_v2_1) = yHalfOf (A := 2048) (B := 4096) (K := 4096)
        (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.RefPieces.lean ====
/-
  What one grid point of the reference's kernel leaves behind, case by case.

  The reference's kernel walks the contraction axis in 8 steps of 512 columns, keeping two running sums in scratch
  memory: one for x · wᵀ and one for (½ x) · wᵀ. At the first step of a run it clears both and adds the step's
  partial product; at a middle step it adds the step's partial product to what the step before left; at the last
  step it does the same and then writes both results' blocks: the finished sum plus the bias row, broadcast down
  the rows. In every case the step's contribution is the product of the x block (256 × 512) with the transposed w
  block (512 × 512) taken into a zero accumulator.

  Each lemma below says that the contents the run found for a scratch or a result block are that arithmetic of the
  blocks the point read; a value stored and read back within the step is the value stored.
-/
import proofs.«168209_g2000306163821141_pallasbulk_1277_4_alg».proof.Proof.Gen.ReferenceIdeal.Frame
import Idealize.ShloMosaic.Lib.Pipeline.Value
import Idealize.ShloMosaic.Lib.Tactic

noncomputable section

namespace Cert.ReferenceIdeal.Pieces

open Cert.ReferenceIdeal Cert.ReferenceIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## First step of a run: both sums start from the cleared scratch -/

/-- The sum of x · wᵀ after a run's first step: the cleared scratch plus the step's partial product. -/
theorem first_sum (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : cond0_0 i) (hc1 : ¬cond0_1 i) (x0 : Vec F S256x512 .f32) (x1 : Vec F S256x512 .f32) (x2 : Vec F S512x512 .f32) (x3 : Vec F S1x512 .f32) :
    sout0_A_0 c i arg3 harg3 arg4 harg4 arg5 harg5 arg6 harg6 arg7 harg7 arg8 harg8 arg9 harg9 arg10 harg10 hc0 hc1 x0 x1 x2 x3 = k0_pay3 x2 (k0_pay1 (F := F)) x0 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S256x512) hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-- The sum of (½ x) · wᵀ after a run's first step: the cleared scratch plus the step's partial product. -/
theorem first_sumHalf (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : cond0_0 i) (hc1 : ¬cond0_1 i) (x0 : Vec F S256x512 .f32) (x1 : Vec F S256x512 .f32) (x2 : Vec F S512x512 .f32) (x3 : Vec F S1x512 .f32) :
    sout0_A_1 c i arg3 harg3 arg4 harg4 arg5 harg5 arg6 harg6 arg7 harg7 arg8 harg8 arg9 harg9 arg10 harg10 hc0 hc1 x0 x1 x2 x3 = k0_pay4 x2 (k0_pay2 (F := F)) x1 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S256x512) hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-! ## A middle step: each sum is what the step before left plus the step's partial product -/

/-- The sum of x · wᵀ after a middle step. -/
theorem middle_sum (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : ¬cond0_1 i) (x0 : Vec F S256x512 .f32) (x1 : Vec F S256x512 .f32) (x2 : Vec F S512x512 .f32) (x3 : Vec F S1x512 .f32) (xs0 xs1 : Vec F S256x512 .f32) :
    sout0_B_0 c i arg3 harg3 arg4 harg4 arg5 harg5 arg6 harg6 arg7 harg7 arg8 harg8 arg9 harg9 arg10 harg10 hc0 hc1 x0 x1 x2 x3 xs0 xs1 = k0_pay3 x2 xs0 x0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-- The sum of (½ x) · wᵀ after a middle step. -/
theorem middle_sumHalf (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : ¬cond0_1 i) (x0 : Vec F S256x512 .f32) (x1 : Vec F S256x512 .f32) (x2 : Vec F S512x512 .f32) (x3 : Vec F S1x512 .f32) (xs0 xs1 : Vec F S256x512 .f32) :
    sout0_B_1 c i arg3 harg3 arg4 harg4 arg5 harg5 arg6 harg6 arg7 harg7 arg8 harg8 arg9 harg9 arg10 harg10 hc0 hc1 x0 x1 x2 x3 xs0 xs1 = k0_pay4 x2 xs1 x1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-! ## The last step: the sums are completed, and the two result blocks are written from them -/

/-- The sum of x · wᵀ after the last step. -/
theorem last_sum (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i) (x0 : Vec F S256x512 .f32) (x1 : Vec F S256x512 .f32) (x2 : Vec F S512x512 .f32) (x3 : Vec F S1x512 .f32) (xs0 xs1 : Vec F S256x512 .f32) :
    sout0_C_0 c i arg3 harg3 arg4 harg4 arg5 harg5 arg6 harg6 arg7 harg7 arg8 harg8 arg9 harg9 arg10 harg10 hc0 hc1 x0 x1 x2 x3 xs0 xs1 = k0_pay3 x2 xs0 x0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-- The sum of (½ x) · wᵀ after the last step. -/
theorem last_sumHalf (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i) (x0 : Vec F S256x512 .f32) (x1 : Vec F S256x512 .f32) (x2 : Vec F S512x512 .f32) (x3 : Vec F S1x512 .f32) (xs0 xs1 : Vec F S256x512 .f32) :
    sout0_C_1 c i arg3 harg3 arg4 harg4 arg5 harg5 arg6 harg6 arg7 harg7 arg8 harg8 arg9 harg9 arg10 harg10 hc0 hc1 x0 x1 x2 x3 xs0 xs1 = k0_pay4 x2 xs1 x1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-- The first result's block: the completed sum of x · wᵀ plus the bias row. -/
theorem last_result (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i) (x0 : Vec F S256x512 .f32) (x1 : Vec F S256x512 .f32) (x2 : Vec F S512x512 .f32) (x3 : Vec F S1x512 .f32) (xs0 xs1 : Vec F S256x512 .f32) :
    out0_C_4 c i arg3 harg3 arg4 harg4 arg5 harg5 arg6 harg6 arg7 harg7 arg8 harg8 arg9 harg9 arg10 harg10 hc0 hc1 x0 x1 x2 x3 xs0 xs1 = k0_pay6 x3 (k0_pay3 x2 xs0 x0) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

/-- The second result's block: the completed sum of (½ x) · wᵀ plus the bias row. -/
theorem last_resultHalf (c : Dev nD) (i : grid0.Coords) (arg3 : Memref sig .tc .vmem S256x512 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (hc0 : ¬cond0_0 i) (hc1 : cond0_1 i) (x0 : Vec F S256x512 .f32) (x1 : Vec F S256x512 .f32) (x2 : Vec F S512x512 .f32) (x3 : Vec F S1x512 .f32) (xs0 xs1 : Vec F S256x512 .f32) :
    out0_C_5 c i arg3 harg3 arg4 harg4 arg5 harg5 arg6 harg6 arg7 harg7 arg8 harg8 arg9 harg9 arg10 harg10 hc0 hc1 x0 x1 x2 x3 xs0 xs1 = k0_pay7 x3 (k0_pay4 x2 xs1 x1) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz]
  simp only [View.readCov_unit_zero (S := S256x512) _ hz, View.readAt_eq_ld, harg3.read_unread, harg4.read_unread,
    harg5.read_unread, harg6.read_unread, harg9.read_unread, harg10.read_unread, View.ld_unit_zero (S := S256x512) hz,
    View.ld_unit_zero (S := S512x512) hz, View.ld_unit_zero (S := S1x512) hz]

end Cert.ReferenceIdeal.Pieces

end
-- ==== Proof.RefStep.lean ====
/-
  One step of the reference's kernel, entry by entry.

  A step holds a block of 256 rows and 512 columns of x (or of ½ x), a block of 512 rows and 512 columns of w, and
  a running sum of 256 × 512 entries. Its matrix unit contracts the 512 columns of both blocks into a zero
  accumulator: entry (p, q) of that partial product is the dot product of row p of the x block with row q of the
  w block over the step's 512 columns. The step adds the partial product to the running sum, entry by entry; the
  cleared sum is zero everywhere; the result block adds, to the finished sum at (p, q), entry q of the bias row.
-/
import proofs.«168209_g2000306163821141_pallasbulk_1277_4_alg».proof.Proof.Gen.ReferenceIdeal.Skeleton
import proofs.«168209_g2000306163821141_pallasbulk_1277_4_alg».proof.Proof.LibOneAxisDot
import proofs.«168209_g2000306163821141_pallasbulk_1277_4_alg».proof.Proof.LibDotFreeAxis
import Idealize.ShloMosaic.Lib.Pipeline.Value
import Idealize.ShloMosaic.Lib.ValueIdx
import Idealize.ShloMosaic.PureOps.Ideal.Laws

noncomputable section

open scoped BigOperators

namespace Cert.ReferenceIdeal.Step

open Cert.ReferenceIdeal Cert.ReferenceIdeal.Gen Idealize.ShloMosaic Idealize.ShloMosaic.ValueIdx

/-- The step's partial product: the x block times the transposed w block, into zero. -/
def partialProduct (xb : FVec Ideal S256x512 .f32) (wb : FVec Ideal S512x512 .f32) : FVec Ideal S256x512 .f32 :=
  matmul dot_S256x512_S512x512_S256x512_1_1_0_0_n_n none xb wb (constant (F := Ideal) S256x512 .f32 0x00000000#32)

/-- Its entry (p, q): row p of the x block against row q of the w block, over the step's 512 columns. -/
theorem partialProduct_apply (xb : Vec Ideal S256x512 .f32) (wb : Vec Ideal S512x512 .f32) (p : Fin 256) (q : Fin 512) :
    (partialProduct xb wb (ix2 p q) : EReal) = ∑ k : Fin 512, (xb (ix2 p k) : EReal) * (wb (ix2 q k) : EReal) := by
  have hr : dot_S256x512_S512x512_S256x512_1_1_0_0_n_n.contr.rank = 1 := rfl
  have hs : dot_S256x512_S512x512_S256x512_1_1_0_0_n_n.contr.size ⟨0, by omega⟩ = 512 := rfl
  unfold partialProduct
  refine Cert.Lib.OneAxisDot.matmul_zero_apply_at dot_S256x512_S512x512_S256x512_1_1_0_0_n_n 512 hr hs none xb wb (ix2 p q)
    (fun k => ix2 p k) (fun k => ix2 q k) ?_ ?_
  · intro k
    funext a
    apply Fin.ext
    match a with
    | ⟨0, _⟩ =>
      exact Cert.Lib.DotFreeAxis.lhsIdx_val_of_free dot_S256x512_S512x512_S256x512_1_1_0_0_n_n rfl rfl (by decide) (ix2 p q) _
    | ⟨1, _⟩ =>
      exact (DotDims.lhsIdx_val_of_single dot_S256x512_S512x512_S256x512_1_1_0_0_n_n rfl (ix2 p q) _).trans (contrEquiv1_symm_val dot_S256x512_S512x512_S256x512_1_1_0_0_n_n 512 hr hs k)
  · intro k
    funext a
    apply Fin.ext
    match a with
    | ⟨0, _⟩ =>
      exact Cert.Lib.DotFreeAxis.rhsIdx_val_of_free dot_S256x512_S512x512_S256x512_1_1_0_0_n_n rfl rfl rfl rfl (by decide) (ix2 p q) _
    | ⟨1, _⟩ =>
      exact (DotDims.rhsIdx_val_of_single dot_S256x512_S512x512_S256x512_1_1_0_0_n_n rfl (ix2 p q) _).trans (contrEquiv1_symm_val dot_S256x512_S512x512_S256x512_1_1_0_0_n_n 512 hr hs k)

/-- The cleared running sum of x · wᵀ is zero at every entry. -/
theorem cleared_apply (i : S256x512.Idx) : (k0_pay1 (F := Ideal) i : EReal) = 0 := by
  unfold k0_pay1
  rw [shapeCast_self]
  exact Ideal.ofBits_zero_f32

/-- The cleared running sum of (½ x) · wᵀ is zero at every entry. -/
theorem clearedHalf_apply (i : S256x512.Idx) : (k0_pay2 (F := Ideal) i : EReal) = 0 := by
  unfold k0_pay2
  rw [shapeCast_self]
  exact Ideal.ofBits_zero_f32

/-- A step of the sum of x · wᵀ: the running sum plus the step's partial product, at every entry. -/
theorem sumStep_apply (wb : Vec Ideal S512x512 .f32) (acc xb : Vec Ideal S256x512 .f32) (i : S256x512.Idx) :
    (k0_pay3 wb acc xb i : EReal) = (acc i : EReal) + (partialProduct xb wb i : EReal) := by
  unfold k0_pay3
  rw [shapeCast_self]
  rfl

/-- A step of the sum of (½ x) · wᵀ. -/
theorem sumHalfStep_apply (wb : Vec Ideal S512x512 .f32) (acc xb : Vec Ideal S256x512 .f32) (i : S256x512.Idx) :
    (k0_pay4 wb acc xb i : EReal) = (acc i : EReal) + (partialProduct xb wb i : EReal) := by
  unfold k0_pay4
  rw [shapeCast_self, shapeCast_self]
  rfl

/-- The bias row broadcast down the 256 rows, at (p, q): entry q of the row. -/
theorem biasRows_apply (bias : Vec Ideal S1x512 .f32) (p : Fin 256) (q : Fin 512) :
    (broadcastTo S256x512 (k0_pay5 bias) broadcasts_S1x512_S256x512 (ix2 p q) : EReal) = (bias (ix2 (0 : Fin 1) q) : EReal) := by
  unfold k0_pay5
  rw [shapeCast_self]
  refine broadcastTo_apply _ _ (ix2 p q) (ix2 (0 : Fin 1) q) fun a => ?_
  match a with
  | ⟨0, _⟩ => show 0 = (if (1 : Nat) = 1 then 0 else p.val); rw [if_pos rfl]
  | ⟨1, _⟩ => show q.val = (if (512 : Nat) = 1 then 0 else q.val); rw [if_neg (by decide)]

/-- The first result's block at (p, q): the finished sum there plus bias entry q. -/
theorem result_apply (bias : Vec Ideal S1x512 .f32) (acc : Vec Ideal S256x512 .f32) (p : Fin 256) (q : Fin 512) :
    (k0_pay6 bias acc (ix2 p q) : EReal) = (acc (ix2 p q) : EReal) + (bias (ix2 (0 : Fin 1) q) : EReal) := by
  unfold k0_pay6
  show (acc (ix2 p q) : EReal) + (broadcastTo S256x512 (k0_pay5 bias) broadcasts_S1x512_S256x512 (ix2 p q) : EReal) = _
  rw [biasRows_apply]

/-- The second result's block at (p, q): likewise. -/
theorem resultHalf_apply (bias : Vec Ideal S1x512 .f32) (acc : Vec Ideal S256x512 .f32) (p : Fin 256) (q : Fin 512) :
    (k0_pay7 bias acc (ix2 p q) : EReal) = (acc (ix2 p q) : EReal) + (bias (ix2 (0 : Fin 1) q) : EReal) := by
  unfold k0_pay7
  show (acc (ix2 p q) : EReal) + (broadcastTo S256x512 (k0_pay5 bias) broadcasts_S1x512_S256x512 (ix2 p q) : EReal) = _
  rw [biasRows_apply]

end Cert.ReferenceIdeal.Step

end
-- ==== Proof.RefFold.lean ====
/-
  The reference's two running sums over a run of 8 steps, and what they hold when the run ends.

  The 512 grid points are numbered along (i, j, k) with k fastest: point t has i = t / 64, j = (t / 8) mod 8,
  k = t mod 8. A run is the 8 points sharing (i, j). Step k reads columns 512 k … of rows 256 i … of x (and of ½ x)
  and of rows 512 j … of w. Each running sum is cleared at k = 0 and receives the step's partial product at every k,
  so after step k it is zero plus the partial products of steps 0 … k; at k = 7 that is, at entry (p, q), the dot
  product of row 256 i + p of x with row 512 j + q of w over all 4096 columns — 8 stretches of 512 columns. For the
  second sum the left matrix is ½ x, and halving the left matrix halves the dot product.
-/
import proofs.«168209_g2000306163821141_pallasbulk_1277_4_alg».proof.Proof.Gen.ReferenceIdeal.Value
import proofs.«168209_g2000306163821141_pallasbulk_1277_4_alg».proof.Proof.RefPieces
import proofs.«168209_g2000306163821141_pallasbulk_1277_4_alg».proof.Proof.RefStep
import proofs.«168209_g2000306163821141_pallasbulk_1277_4_alg».proof.Proof.DualLinearSpec
import Idealize.ShloMosaic.Lib.StableHlo.Run

noncomputable section

open scoped BigOperators

namespace Cert.ReferenceIdeal.Fold

open Cert.ReferenceIdeal Cert.ReferenceIdeal.Gen Idealize.ShloMosaic Idealize.ShloMosaic.TcCoe Idealize.SL.Sem
open Idealize.ShloMosaic.ValueIdx Cert.BlockSum Cert.DualLinear
open Idealize.ShloMosaic.Pipeline (Dat)

variable (m : (ℓ : Loc nD τ sig) → Buf (Elt Ideal) ℓ)

/-! ## One step of each running sum, from the case the point is in -/

/-- At a run's first point the sum of x · wᵀ is the cleared scratch plus the step's partial product, whatever
    the scratch held. -/
theorem sum_first (c : Dev nD) (n : ℕ) (hb : n < cfg0.N) (h0 : n % 8 = 0) (acc : Vec Ideal S256x512 .f32) :
    Value.scAt0_0 m c n hb acc = k0_pay3 (iblk m c 2 (⟨n, hb⟩ : Fin cfg0.N)) (k0_pay1 (F := Ideal)) (iblk m c 0 (⟨n, hb⟩ : Fin cfg0.N)) := by
  have h1 : ¬n % 8 = 7 := by omega
  unfold Value.scAt0_0
  rw [dif_pos h0, dif_neg h1]
  exact Pieces.first_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At every later point of a run it is what the point before left plus the step's partial product. -/
theorem sum_later (c : Dev nD) (n : ℕ) (hb : n < cfg0.N) (h0 : ¬n % 8 = 0) (acc : Vec Ideal S256x512 .f32) :
    Value.scAt0_0 m c n hb acc = k0_pay3 (iblk m c 2 (⟨n, hb⟩ : Fin cfg0.N)) acc (iblk m c 0 (⟨n, hb⟩ : Fin cfg0.N)) := by
  unfold Value.scAt0_0
  rw [dif_neg h0]
  by_cases h1 : n % 8 = 7
  · rw [dif_pos h1]
    exact Pieces.last_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc _
  · rw [dif_neg h1]
    exact Pieces.middle_sum (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc _

theorem sumHalf_first (c : Dev nD) (n : ℕ) (hb : n < cfg0.N) (h0 : n % 8 = 0) (acc : Vec Ideal S256x512 .f32) :
    Value.scAt0_1 m c n hb acc = k0_pay4 (iblk m c 2 (⟨n, hb⟩ : Fin cfg0.N)) (k0_pay2 (F := Ideal)) (iblk m c 1 (⟨n, hb⟩ : Fin cfg0.N)) := by
  have h1 : ¬n % 8 = 7 := by omega
  unfold Value.scAt0_1
  rw [dif_pos h0, dif_neg h1]
  exact Pieces.first_sumHalf (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

theorem sumHalf_later (c : Dev nD) (n : ℕ) (hb : n < cfg0.N) (h0 : ¬n % 8 = 0) (acc : Vec Ideal S256x512 .f32) :
    Value.scAt0_1 m c n hb acc = k0_pay4 (iblk m c 2 (⟨n, hb⟩ : Fin cfg0.N)) acc (iblk m c 1 (⟨n, hb⟩ : Fin cfg0.N)) := by
  unfold Value.scAt0_1
  rw [dif_neg h0]
  by_cases h1 : n % 8 = 7
  · rw [dif_pos h1]
    exact Pieces.last_sumHalf (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) _ acc
  · rw [dif_neg h1]
    exact Pieces.middle_sumHalf (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) _ acc

/-! ## The sums as zero plus the run's partial products -/

/-- Point n's partial product of the x block with the w block (zero past the grid). -/
def addend (c : Dev nD) (n : ℕ) : S256x512.Idx → EReal := fun i =>
  if h : n < cfg0.N then (Step.partialProduct (iblk m c 0 (⟨n, h⟩ : Fin cfg0.N)) (iblk m c 2 (⟨n, h⟩ : Fin cfg0.N)) i : EReal) else 0

/-- Point n's partial product of the ½ x block with the w block (zero past the grid). -/
def addendHalf (c : Dev nD) (n : ℕ) : S256x512.Idx → EReal := fun i =>
  if h : n < cfg0.N then (Step.partialProduct (iblk m c 1 (⟨n, h⟩ : Fin cfg0.N)) (iblk m c 2 (⟨n, h⟩ : Fin cfg0.N)) i : EReal) else 0

/-- After point t the sum of x · wᵀ is zero plus the partial products of the run's points up to t. -/
theorem sum_fold (c : Dev nD) (t : Fin cfg0.N) (i : S256x512.Idx) :
    ((outsAt0 m c t.val t.isLt).2.2.1 i : EReal)
      = 0 + ∑ s ∈ Finset.range (t.val % 8 + 1), addend m c (8 * (t.val / 8) + s) i := by
  rw [Value.soutsAt0_0_eq m c t]
  refine Pipeline.accAt_add_apply (ι := S256x512.Idx) (β := EReal) _ _ (fun _ => 0) (addend m c) (8 * (t.val / 8)) 7
    ?_ ?_ (t.val % 8) (by omega) _ i
  · intro h i
    rw [sum_first m c _ h (by omega)]
    refine (Step.sumStep_apply (iblk m c 2 (⟨8 * (t.val / 8), h⟩ : Fin cfg0.N)) (k0_pay1 (F := Ideal))
      (iblk m c 0 (⟨8 * (t.val / 8), h⟩ : Fin cfg0.N)) i).trans ?_
    rw [Step.cleared_apply]
    unfold addend
    rw [dif_pos h]
  · intro n h acc i hlt hle
    rw [sum_later m c n h (by omega) acc]
    refine (Step.sumStep_apply (iblk m c 2 (⟨n, h⟩ : Fin cfg0.N)) acc (iblk m c 0 (⟨n, h⟩ : Fin cfg0.N)) i).trans ?_
    unfold addend
    rw [dif_pos h]

/-- After point t the sum of (½ x) · wᵀ is zero plus its partial products of the run's points up to t. -/
theorem sumHalf_fold (c : Dev nD) (t : Fin cfg0.N) (i : S256x512.Idx) :
    ((outsAt0 m c t.val t.isLt).2.2.2 i : EReal)
      = 0 + ∑ s ∈ Finset.range (t.val % 8 + 1), addendHalf m c (8 * (t.val / 8) + s) i := by
  rw [Value.soutsAt0_1_eq m c t]
  refine Pipeline.accAt_add_apply (ι := S256x512.Idx) (β := EReal) _ _ (fun _ => 0) (addendHalf m c) (8 * (t.val / 8)) 7
    ?_ ?_ (t.val % 8) (by omega) _ i
  · intro h i
    rw [sumHalf_first m c _ h (by omega)]
    refine (Step.sumHalfStep_apply (iblk m c 2 (⟨8 * (t.val / 8), h⟩ : Fin cfg0.N)) (k0_pay2 (F := Ideal))
      (iblk m c 1 (⟨8 * (t.val / 8), h⟩ : Fin cfg0.N)) i).trans ?_
    rw [Step.clearedHalf_apply]
    unfold addendHalf
    rw [dif_pos h]
  · intro n h acc i hlt hle
    rw [sumHalf_later m c n h (by omega) acc]
    refine (Step.sumHalfStep_apply (iblk m c 2 (⟨n, h⟩ : Fin cfg0.N)) acc (iblk m c 1 (⟨n, h⟩ : Fin cfg0.N)) i).trans ?_
    unfold addendHalf
    rw [dif_pos h]

/-! ## Where the blocks sit -/

/-- The block positions of every window at point t = 64 i + 8 j + k: x and ½ x at (i, k), w at (j, k), the bias row
    at (0, j), both results at (i, j). -/
theorem where_blocks : ∀ t : Fin cfg0.N,
    win0_0.index t (0 : Fin 2) = t.val / 64 ∧ win0_0.index t (1 : Fin 2) = t.val % 8
    ∧ win0_1.index t (0 : Fin 2) = t.val / 64 ∧ win0_1.index t (1 : Fin 2) = t.val % 8
    ∧ win0_2.index t (0 : Fin 2) = t.val / 8 % 8 ∧ win0_2.index t (1 : Fin 2) = t.val % 8
    ∧ win0_3.index t (0 : Fin 2) = 0 ∧ win0_3.index t (1 : Fin 2) = t.val / 8 % 8
    ∧ win0_4.index t (0 : Fin 2) = t.val / 64 ∧ win0_4.index t (1 : Fin 2) = t.val / 8 % 8
    ∧ win0_5.index t (0 : Fin 2) = t.val / 64 ∧ win0_5.index t (1 : Fin 2) = t.val / 8 % 8 :=
  (by decide +kernel : ∀ t : Fin grid0.N, _)

/-! ## The arrays the host wrote before the region -/

/-- The half-scaled input: every entry of x times the float ½. -/
theorem V_halfx (c : Dev nD) :
    (V m c main_v2 : S2048x4096.Idx → EReal)
      = fun i => half * (m ((c : Thread nD τ).loc main_arg0) i : EReal) := by
  dsimp only [V, hostOps0]; after_results; rfl

/-- The bias as one row of 4096 entries. -/
theorem V_biasrow (c : Dev nD) :
    (V m c main_v0 : S1x4096.Idx → EReal)
      = shapeCast S1x4096 (m ((c : Thread nD τ).loc main_arg2) : S4096.Idx → EReal) shapeCasts_S4096_S1x4096 := by
  dsimp only [V, hostOps0]; after_results; rfl

section Point

variable (c : Dev nD) (t : Fin cfg0.N)

theorem xblock_apply (p : Fin 256) (k : Fin 512) :
    (iblk m c 0 t (ix2 p k) : EReal)
      = ext2 (A := 2048) (B := 4096) (m ((c : Thread nD τ).loc main_arg0)) (t.val / 64 * 256 + p.val) (t.val % 8 * 512 + k.val) := by
  obtain ⟨e0, e1, -⟩ := where_blocks t
  show (V m c main_arg0 (((cfg0.win 0).blk t).view.emb (ix2 p k)) : EReal) = _
  rw [V_main_arg0]
  refine apply_eq_ext2 (A := 2048) (B := 4096) (m ((c : Thread nD τ).loc main_arg0)) _ _ _ ?_ ?_
  · show win0_0.index t (0 : Fin 2) * 256 + 1 * p.val = _
    omega
  · show win0_0.index t (1 : Fin 2) * 512 + 1 * k.val = _
    omega

theorem halfxblock_apply (p : Fin 256) (k : Fin 512) :
    (iblk m c 1 t (ix2 p k) : EReal)
      = ext2 (A := 2048) (B := 4096) (fun i => half * ((m ((c : Thread nD τ).loc main_arg0)) i : EReal)) (t.val / 64 * 256 + p.val) (t.val % 8 * 512 + k.val) := by
  obtain ⟨-, -, e2, e3, -⟩ := where_blocks t
  show (V m c main_v2 (((cfg0.win 1).blk t).view.emb (ix2 p k)) : EReal) = _
  rw [V_halfx]
  refine apply_eq_ext2 (A := 2048) (B := 4096) (fun i => half * ((m ((c : Thread nD τ).loc main_arg0)) i : EReal)) _ _ _ ?_ ?_
  · show win0_1.index t (0 : Fin 2) * 256 + 1 * p.val = _
    omega
  · show win0_1.index t (1 : Fin 2) * 512 + 1 * k.val = _
    omega

theorem wblock_apply (q : Fin 512) (k : Fin 512) :
    (iblk m c 2 t (ix2 q k) : EReal)
      = ext2 (A := 4096) (B := 4096) (m ((c : Thread nD τ).loc main_arg1)) (t.val / 8 % 8 * 512 + q.val) (t.val % 8 * 512 + k.val) := by
  obtain ⟨-, -, -, -, e4, e5, -⟩ := where_blocks t
  show (V m c main_arg1 (((cfg0.win 2).blk t).view.emb (ix2 q k)) : EReal) = _
  rw [V_main_arg1]
  refine apply_eq_ext2 (A := 4096) (B := 4096) (m ((c : Thread nD τ).loc main_arg1)) _ _ _ ?_ ?_
  · show win0_2.index t (0 : Fin 2) * 512 + 1 * q.val = _
    omega
  · show win0_2.index t (1 : Fin 2) * 512 + 1 * k.val = _
    omega

theorem biasblock_apply (q : Fin 512) :
    (iblk m c 3 t (ix2 (0 : Fin 1) q) : EReal) = ext1 (B := 4096) (m ((c : Thread nD τ).loc main_arg2)) (t.val / 8 % 8 * 512 + q.val) := by
  obtain ⟨-, -, -, -, -, -, e6, e7, -⟩ := where_blocks t
  show (V m c main_v0 (((cfg0.win 3).blk t).view.emb (ix2 (0 : Fin 1) q)) : EReal) = _
  rw [V_biasrow]
  refine (shapeCast_addUnit_apply ![4096] _ _ _).trans ?_
  refine apply_eq_ext1 (B := 4096) (m ((c : Thread nD τ).loc main_arg2)) _ _ ?_
  show win0_3.index t (1 : Fin 2) * 512 + 1 * q.val = _
  omega

end Point

/-! ## The sums when a run ends -/

/-- Step s of point t's run contributes, at (p, q), the stretch of columns 512 s … of the dot product of row
    256 i + p of x with row 512 j + q of w. -/
theorem addend_apply (c : Dev nD) (t : Fin cfg0.N) (s : ℕ) (hs : s < 8) (p : Fin 256) (q : Fin 512) :
    addend m c (8 * (t.val / 8) + s) (ix2 p q)
      = ∑ k : Fin 512, ext2 (A := 2048) (B := 4096) (m ((c : Thread nD τ).loc main_arg0)) (t.val / 64 * 256 + p.val) (s * 512 + k.val)
          * ext2 (A := 4096) (B := 4096) (m ((c : Thread nD τ).loc main_arg1)) (t.val / 8 % 8 * 512 + q.val) (s * 512 + k.val) := by
  have hN : cfg0.N = 512 := N_0
  have ht : t.val < 512 := lt_of_lt_of_eq t.isLt hN
  have hn : 8 * (t.val / 8) + s < cfg0.N := by omega
  unfold addend
  rw [dif_pos hn]
  refine (Step.partialProduct_apply (iblk m c 0 (⟨8 * (t.val / 8) + s, hn⟩ : Fin cfg0.N))
    (iblk m c 2 (⟨8 * (t.val / 8) + s, hn⟩ : Fin cfg0.N)) p q).trans ?_
  refine Finset.sum_congr rfl fun k _ => ?_
  rw [xblock_apply m c (⟨8 * (t.val / 8) + s, hn⟩ : Fin cfg0.N) p k, wblock_apply m c (⟨8 * (t.val / 8) + s, hn⟩ : Fin cfg0.N) q k]
  have a1 : (8 * (t.val / 8) + s) / 64 = t.val / 64 := by omega
  have a2 : (8 * (t.val / 8) + s) % 8 = s := by omega
  have a3 : (8 * (t.val / 8) + s) / 8 % 8 = t.val / 8 % 8 := by omega
  show ext2 _ ((8 * (t.val / 8) + s) / 64 * 256 + p.val) ((8 * (t.val / 8) + s) % 8 * 512 + k.val)
    * ext2 _ ((8 * (t.val / 8) + s) / 8 % 8 * 512 + q.val) ((8 * (t.val / 8) + s) % 8 * 512 + k.val) = _
  rw [a1, a2, a3]

theorem addendHalf_apply (c : Dev nD) (t : Fin cfg0.N) (s : ℕ) (hs : s < 8) (p : Fin 256) (q : Fin 512) :
    addendHalf m c (8 * (t.val / 8) + s) (ix2 p q)
      = ∑ k : Fin 512, ext2 (A := 2048) (B := 4096) (fun i => half * ((m ((c : Thread nD τ).loc main_arg0)) i : EReal)) (t.val / 64 * 256 + p.val) (s * 512 + k.val)
          * ext2 (A := 4096) (B := 4096) (m ((c : Thread nD τ).loc main_arg1)) (t.val / 8 % 8 * 512 + q.val) (s * 512 + k.val) := by
  have hN : cfg0.N = 512 := N_0
  have ht : t.val < 512 := lt_of_lt_of_eq t.isLt hN
  have hn : 8 * (t.val / 8) + s < cfg0.N := by omega
  unfold addendHalf
  rw [dif_pos hn]
  refine (Step.partialProduct_apply (iblk m c 1 (⟨8 * (t.val / 8) + s, hn⟩ : Fin cfg0.N))
    (iblk m c 2 (⟨8 * (t.val / 8) + s, hn⟩ : Fin cfg0.N)) p q).trans ?_
  refine Finset.sum_congr rfl fun k _ => ?_
  rw [halfxblock_apply m c (⟨8 * (t.val / 8) + s, hn⟩ : Fin cfg0.N) p k, wblock_apply m c (⟨8 * (t.val / 8) + s, hn⟩ : Fin cfg0.N) q k]
  have a1 : (8 * (t.val / 8) + s) / 64 = t.val / 64 := by omega
  have a2 : (8 * (t.val / 8) + s) % 8 = s := by omega
  have a3 : (8 * (t.val / 8) + s) / 8 % 8 = t.val / 8 % 8 := by omega
  show ext2 _ ((8 * (t.val / 8) + s) / 64 * 256 + p.val) ((8 * (t.val / 8) + s) % 8 * 512 + k.val)
    * ext2 _ ((8 * (t.val / 8) + s) / 8 % 8 * 512 + q.val) ((8 * (t.val / 8) + s) % 8 * 512 + k.val) = _
  rw [a1, a2, a3]

/-- When a run ends the sum of x · wᵀ holds, at (p, q), the whole dot product of row 256 i + p of x with row
    512 j + q of w. -/
theorem sum_at_end (c : Dev nD) (t : Fin cfg0.N) (h7 : t.val % 8 = 7) (p : Fin 256) (q : Fin 512) :
    ((outsAt0 m c t.val t.isLt).2.2.1 (ix2 p q) : EReal)
      = rowDot (A := 2048) (B := 4096) (K := 4096) (m ((c : Thread nD τ).loc main_arg0)) (m ((c : Thread nD τ).loc main_arg1)) (t.val / 64 * 256 + p.val) (t.val / 8 % 8 * 512 + q.val) 4096 := by
  rw [sum_fold m c t (ix2 p q), h7, zero_add]
  rw [Finset.sum_congr rfl fun s hs => addend_apply m c t s (Finset.mem_range.mp hs) p q]
  exact rowDot_stretches (A := 2048) (B := 4096) (K := 4096) (m ((c : Thread nD τ).loc main_arg0)) (m ((c : Thread nD τ).loc main_arg1)) _ _ 8 512

/-- … and the sum of (½ x) · wᵀ holds half of it. -/
theorem sumHalf_at_end (c : Dev nD) (t : Fin cfg0.N) (h7 : t.val % 8 = 7) (p : Fin 256) (q : Fin 512) :
    ((outsAt0 m c t.val t.isLt).2.2.2 (ix2 p q) : EReal)
      = half * rowDot (A := 2048) (B := 4096) (K := 4096) (m ((c : Thread nD τ).loc main_arg0)) (m ((c : Thread nD τ).loc main_arg1)) (t.val / 64 * 256 + p.val) (t.val / 8 % 8 * 512 + q.val) 4096 := by
  rw [sumHalf_fold m c t (ix2 p q), h7, zero_add]
  rw [Finset.sum_congr rfl fun s hs => addendHalf_apply m c t s (Finset.mem_range.mp hs) p q]
  rw [rowDot_stretches (A := 2048) (B := 4096) (K := 4096) (fun i => half * ((m ((c : Thread nD τ).loc main_arg0)) i : EReal)) (m ((c : Thread nD τ).loc main_arg1)) _ _ 8 512]
  exact rowDot_half (A := 2048) (B := 4096) (K := 4096) (m ((c : Thread nD τ).loc main_arg0)) (m ((c : Thread nD τ).loc main_arg1)) _ _ _

end Cert.ReferenceIdeal.Fold

end
-- ==== Proof.RefArray.lean ====
/-
  The reference's two result arrays after its run, as whole-array functions of the arguments.

  A result block is written back only at the last step of a run, the points t with t mod 8 = 7; there the block of
  the first result is the finished sum of x · wᵀ plus the bias row, the block of the second the finished sum of
  (½ x) · wᵀ plus the bias row. With the sums read as whole dot products, the block written at point
  t = 64 i + 8 j + 7 is the block at rows 256 i …, columns 512 j … of y, respectively of y½. The 64 runs' blocks tile
  the 2048 × 4096 results, so each result array ends as that function of the arguments.
-/
import proofs.«168209_g2000306163821141_pallasbulk_1277_4_alg».proof.Proof.RefFold

noncomputable section

open scoped BigOperators

namespace Cert.ReferenceIdeal.Whole

open Cert.ReferenceIdeal Cert.ReferenceIdeal.Gen Idealize.ShloMosaic Idealize.ShloMosaic.TcCoe Idealize.SL.Sem
open Idealize.ShloMosaic.ValueIdx Cert.BlockSum Cert.DualLinear
open Idealize.ShloMosaic.Pipeline (Dat)

variable (m : (ℓ : Loc nD τ sig) → Buf (Elt Ideal) ℓ) (ρ : Dev nD → PrngReg)

section Point

variable (c : Dev nD) (t : Fin cfg0.N)

/-- At a run's last point the first result's block is the bias row added to the finished sum of x · wᵀ. -/
theorem flushed4_last (h0 : ¬t.val % 8 = 0) (h7 : t.val % 8 = 7) :
    (dats m 0 c).flushed 4 t = k0_pay6 (iblk m c 3 t) ((outsAt0 m c t.val t.isLt).2.2.1) := by
  have e1 := Pieces.last_result (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  have e2 : (outsAt0 m c t.val t.isLt).2.2.1 = k0_pay3 (iblk m c 2 t) (outsAt0 m c (t.val - 1) (Nat.lt_of_le_of_lt (Nat.sub_le _ _) t.isLt)).2.2.1 (iblk m c 0 t) := by
    rw [outsAt0_C m c t h0 h7]
    dsimp only
    exact Pieces.last_sum (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  rw [Value.flushed4_C m c t h0 h7, e2]
  funext y
  exact congrFun e1 y

/-- At a run's last point the second result's block is the bias row added to the finished sum of (½ x) · wᵀ. -/
theorem flushed5_last (h0 : ¬t.val % 8 = 0) (h7 : t.val % 8 = 7) :
    (dats m 0 c).flushed 5 t = k0_pay7 (iblk m c 3 t) ((outsAt0 m c t.val t.isLt).2.2.2) := by
  have e1 := Pieces.last_resultHalf (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  have e2 : (outsAt0 m c t.val t.isLt).2.2.2 = k0_pay4 (iblk m c 2 t) (outsAt0 m c (t.val - 1) (Nat.lt_of_le_of_lt (Nat.sub_le _ _) t.isLt)).2.2.2 (iblk m c 1 t) := by
    rw [outsAt0_C m c t h0 h7]
    dsimp only
    exact Pieces.last_sumHalf (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  rw [Value.flushed5_C m c t h0 h7, e2]
  funext y
  exact congrFun e1 y

/-- What a point that writes back writes to the first result is its block of y. -/
theorem flushed4_eq (hf : (cfg0.win 4).flush t = true) :
    (dats m 0 c).flushed 4 t = ((cfg0.win 4).blk t).view.read (Elt Ideal) (yOf (A := 2048) (B := 4096) (K := 4096) (m ((c : Thread nD τ).loc main_arg0)) (m ((c : Thread nD τ).loc main_arg1)) (m ((c : Thread nD τ).loc main_arg2))) := by
  have h7 : t.val % 8 = 7 := (flush0_4 t).mp hf
  have h0 : ¬t.val % 8 = 0 := by omega
  obtain ⟨-, -, -, -, -, -, -, -, e8, e9, -⟩ := Fold.where_blocks t
  rw [flushed4_last m c t h0 h7]
  funext y
  obtain ⟨p, q, rfl⟩ : ∃ (p : Fin 256) (q : Fin 512), y = ix2 p q := ⟨y 0, y 1, eq_ix2 y⟩
  show (k0_pay6 (iblk m c 3 t) ((outsAt0 m c t.val t.isLt).2.2.1) (ix2 p q) : EReal)
    = yOf (A := 2048) (B := 4096) (K := 4096) (m ((c : Thread nD τ).loc main_arg0)) (m ((c : Thread nD τ).loc main_arg1)) (m ((c : Thread nD τ).loc main_arg2)) (((cfg0.win 4).blk t).view.emb (ix2 p q))
  refine (Step.result_apply (iblk m c 3 t) ((outsAt0 m c t.val t.isLt).2.2.1) p q).trans ?_
  rw [Fold.sum_at_end m c t h7 p q, Fold.biasblock_apply m c t q]
  have r0 : ((((cfg0.win 4).blk t).view.emb (ix2 p q)) 0).val = t.val / 64 * 256 + p.val := by
    show win0_4.index t (0 : Fin 2) * 256 + 1 * p.val = _
    omega
  have r1 : ((((cfg0.win 4).blk t).view.emb (ix2 p q)) 1).val = t.val / 8 % 8 * 512 + q.val := by
    show win0_4.index t (1 : Fin 2) * 512 + 1 * q.val = _
    omega
  unfold yOf
  rw [r0, r1]

/-- What a point that writes back writes to the second result is its block of y½. -/
theorem flushed5_eq (hf : (cfg0.win 5).flush t = true) :
    (dats m 0 c).flushed 5 t = ((cfg0.win 5).blk t).view.read (Elt Ideal) (yHalfOf (A := 2048) (B := 4096) (K := 4096) (m ((c : Thread nD τ).loc main_arg0)) (m ((c : Thread nD τ).loc main_arg1)) (m ((c : Thread nD τ).loc main_arg2))) := by
  have h7 : t.val % 8 = 7 := (flush0_5 t).mp hf
  have h0 : ¬t.val % 8 = 0 := by omega
  obtain ⟨-, -, -, -, -, -, -, -, -, -, e10, e11⟩ := Fold.where_blocks t
  rw [flushed5_last m c t h0 h7]
  funext y
  obtain ⟨p, q, rfl⟩ : ∃ (p : Fin 256) (q : Fin 512), y = ix2 p q := ⟨y 0, y 1, eq_ix2 y⟩
  show (k0_pay7 (iblk m c 3 t) ((outsAt0 m c t.val t.isLt).2.2.2) (ix2 p q) : EReal)
    = yHalfOf (A := 2048) (B := 4096) (K := 4096) (m ((c : Thread nD τ).loc main_arg0)) (m ((c : Thread nD τ).loc main_arg1)) (m ((c : Thread nD τ).loc main_arg2)) (((cfg0.win 5).blk t).view.emb (ix2 p q))
  refine (Step.resultHalf_apply (iblk m c 3 t) ((outsAt0 m c t.val t.isLt).2.2.2) p q).trans ?_
  rw [Fold.sumHalf_at_end m c t h7 p q, Fold.biasblock_apply m c t q]
  have r0 : ((((cfg0.win 5).blk t).view.emb (ix2 p q)) 0).val = t.val / 64 * 256 + p.val := by
    show win0_5.index t (0 : Fin 2) * 256 + 1 * p.val = _
    omega
  have r1 : ((((cfg0.win 5).blk t).view.emb (ix2 p q)) 1).val = t.val / 8 % 8 * 512 + q.val := by
    show win0_5.index t (1 : Fin 2) * 512 + 1 * q.val = _
    omega
  unfold yHalfOf
  rw [r0, r1]

end Point

/-! ## The blocks written back tile the results -/

theorem mem_blk4 (t : Fin cfg0.N) (i : S2048x4096.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v3_0).slice (win0_4.rect t)).set ↔ _
  rw [View.set_slice_whole, Rect.mem_set_unit]
  exact Iff.rfl

theorem mem_blk5 (t : Fin cfg0.N) (i : S2048x4096.Idx) :
    i ∈ ((cfg0.win 5).blk t).view.set ↔ ∀ a : Fin 2, win0_5.index t a * S256x512.size a ≤ (i a).val
      ∧ (i a).val < win0_5.index t a * S256x512.size a + S256x512.size a := by
  show i ∈ ((View.whole main_v3_1).slice (win0_5.rect t)).set ↔ _
  rw [View.set_slice_whole, Rect.mem_set_unit]
  exact Iff.rfl

/-- Entry (r, o) is in the block written at the last point of the run (r / 256, o / 512). -/
theorem covered4 (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  have hN : cfg0.N = 512 := N_0
  let t : Fin cfg0.N := ⟨64 * ((i 0).val / 256) + 8 * ((i 1).val / 512) + 7, by omega⟩
  have tv : t.val = 64 * ((i 0).val / 256) + 8 * ((i 1).val / 512) + 7 := rfl
  obtain ⟨-, -, -, -, -, -, -, -, e8, e9, -⟩ := Fold.where_blocks t
  refine ⟨t, (flush0_4 t).mpr (by omega), ?_⟩
  rw [mem_blk4]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 512 ≤ (i 1).val ∧ (i 1).val < win0_4.index t (1 : Fin 2) * 512 + 512
    omega

theorem covered5 (i : S2048x4096.Idx) :
    ∃ t : Fin cfg0.N, (cfg0.win 5).flush t = true ∧ i ∈ ((cfg0.win 5).blk t).view.set := by
  have hi0 : (i 0).val < 2048 := (i 0).isLt
  have hi1 : (i 1).val < 4096 := (i 1).isLt
  have hN : cfg0.N = 512 := N_0
  let t : Fin cfg0.N := ⟨64 * ((i 0).val / 256) + 8 * ((i 1).val / 512) + 7, by omega⟩
  have tv : t.val = 64 * ((i 0).val / 256) + 8 * ((i 1).val / 512) + 7 := rfl
  obtain ⟨-, -, -, -, -, -, -, -, -, -, e10, e11⟩ := Fold.where_blocks t
  refine ⟨t, (flush0_5 t).mpr (by omega), ?_⟩
  rw [mem_blk5]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 512 ≤ (i 1).val ∧ (i 1).val < win0_5.index t (1 : Fin 2) * 512 + 512
    omega

/-! ## The arrays after the run -/

theorem final4 (c : Dev nD) : (dats m 0 c).arrAt 4 cfg0.N = yOf (A := 2048) (B := 4096) (K := 4096) (m ((c : Thread nD τ).loc main_arg0)) (m ((c : Thread nD τ).loc main_arg1)) (m ((c : Thread nD τ).loc main_arg2)) :=
  (dats m 0 c).arrAt_eq_of_cover 4 _ (fun t hf => flushed4_eq m c t hf) covered4

theorem final5 (c : Dev nD) : (dats m 0 c).arrAt 5 cfg0.N = yHalfOf (A := 2048) (B := 4096) (K := 4096) (m ((c : Thread nD τ).loc main_arg0)) (m ((c : Thread nD τ).loc main_arg1)) (m ((c : Thread nD τ).loc main_arg2)) :=
  (dats m 0 c).arrAt_eq_of_cover 5 _ (fun t hf => flushed5_eq m c t hf) covered5

/-- Every weakly fair execution of the reference's program ends with the first result at y, the second at y½, and
    the arguments as launched. -/
theorem run : θ_run defs (onTc (τ := τ) (main (F := Ideal))) ⟨m, fun _ => 0, ρ⟩ fun r => ∀ c : Dev nD,
      r.2.mem ((c : Thread nD τ).loc main_v3_0) = yOf (A := 2048) (B := 4096) (K := 4096) (m ((c : Thread nD τ).loc main_arg0)) (m ((c : Thread nD τ).loc main_arg1)) (m ((c : Thread nD τ).loc main_arg2))
      ∧ r.2.mem ((c : Thread nD τ).loc main_v3_1) = yHalfOf (A := 2048) (B := 4096) (K := 4096) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final4 m c), (h c).2.1.trans (final5 m c), (h c).2.2⟩)
    (Value.run_blocks m ρ)

end Cert.ReferenceIdeal.Whole

end
-- ==== Proof.lean ====
/-
  Two linear layers from one product: the kernel against its reference.

  Both programs take x (2048 × 4096), w (4096 × 4096) and a bias (4096) and return y = x · wᵀ + b and the layer
  applied to the half-scaled input. The kernel computes each 1024 × 512 block of x · wᵀ in one product over all
  4096 columns and returns the product plus the bias and half the product plus the bias. The reference scales x by
  ½ first, walks the 4096 columns in 8 steps of 512 with two running sums cleared at the first step, and adds the
  bias at the last.

  Read on the extended reals both first results are the dot product over all 4096 columns plus the bias entry, since
  a sum of 8 stretches of 512 columns is the sum over 4096 columns and zero is neutral; both second results are
  half that dot product plus the bias entry, since the nonnegative real factor ½ goes through a finite sum of
  extended reals and through the product with w's entry. Neither step needs an entry to be finite, so the
  precondition is not used. The idealization rewrote nothing, so there is nothing to preserve.
-/
import proofs.«168209_g2000306163821141_pallasbulk_1277_4_alg».proof.Defs
import proofs.«168209_g2000306163821141_pallasbulk_1277_4_alg».proof.Proof.Gen.Kernel
import proofs.«168209_g2000306163821141_pallasbulk_1277_4_alg».proof.Proof.Gen.Kernel.Frame
import proofs.«168209_g2000306163821141_pallasbulk_1277_4_alg».proof.Proof.Gen.KernelIdeal
import proofs.«168209_g2000306163821141_pallasbulk_1277_4_alg».proof.Proof.Gen.KernelIdeal.Frame
import proofs.«168209_g2000306163821141_pallasbulk_1277_4_alg».proof.Proof.Gen.ReferenceIdeal
import proofs.«168209_g2000306163821141_pallasbulk_1277_4_alg».proof.Proof.Gen.ReferenceIdeal.Frame
import proofs.«168209_g2000306163821141_pallasbulk_1277_4_alg».proof.Proof.Gen.Pre_finite_inputs
import proofs.«168209_g2000306163821141_pallasbulk_1277_4_alg».proof.Proof.KernelArray
import proofs.«168209_g2000306163821141_pallasbulk_1277_4_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference. -/
theorem frame_referenceIdeal : Cert.frame_ReferenceIdeal := fun m ρ _ => Cert.ReferenceIdeal.Gen.frame m ρ

/-- From memories that agree on x, w and the bias, both programs end with the same two result arrays: y and y½ of
    the common arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ?_) (Cert.ReferenceIdeal.Whole.run m' ρ')
  obtain ⟨h1, h2, h3, h4, h5⟩ := h c
  obtain ⟨a0, a1, a2⟩ := hagree c
  refine ⟨h1.trans ?_, h2.trans ?_, h3, h4, h5⟩
  · rw [a0, a1, a2]
  · rw [a0, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
